-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2000x4 : Shape := ⟨3, ![8, 2000, 4]⟩
abbrev S_ : Shape := ⟨0, ![]⟩

class Facts : Prop where
  bcast_S_S8x2000x4 : S_.BroadcastsInDim S8x2000x4 (![] : Fin 0 → Fin S8x2000x4.rank)
  reducesTo_S8x2000x4_S_d0_1_2 : S8x2000x4.ReducesTo [0, 1, 2] S_
  h_S_ : 0 < S_.numel

variable [Facts]

def fn {F : FTy → Type} [FloatOps F] (main_arg0 : FVec F S8x2000x4 .f32) (main_arg1 : FVec F S8x2000x4 .f32) : IVec S_ 1 :=
  let main_v0 : FVec F S8x2000x4 .f32 := Host.absf main_arg0
  let main_cst : FVec F S_ .f32 := constant S_ .f32 0x7F800000#32
  let main_v1 : FVec F S8x2000x4 .f32 := broadcastInDim S8x2000x4 ![] bcast_S_S8x2000x4 main_cst
  let main_v2 : IVec S8x2000x4 1 := cmpf .olt main_v0 main_v1
  let main_c : IVec S_ 1 := constantI S_ 1 1#1
  let main_v3 : IVec S_ 1 := (fun x v => Host.reduce IntOp.andi x v reducesTo_S8x2000x4_S_d0_1_2 h_S_) main_v2 main_c
  let main_v4 : FVec F S8x2000x4 .f32 := Host.absf main_arg1
  let main_cst_0 : FVec F S_ .f32 := constant S_ .f32 0x7F800000#32
  let main_v5 : FVec F S8x2000x4 .f32 := broadcastInDim S8x2000x4 ![] bcast_S_S8x2000x4 main_cst_0
  let main_v6 : IVec S8x2000x4 1 := cmpf .olt main_v4 main_v5
  let main_c_1 : IVec S_ 1 := constantI S_ 1 1#1
  let main_v7 : IVec S_ 1 := (fun x v => Host.reduce IntOp.andi x v reducesTo_S8x2000x4_S_d0_1_2 h_S_) main_v6 main_c_1
  let main_v8 : IVec S_ 1 := andi main_v3 main_v7
  main_v8
-- ==== Kernel.lean ====
abbrev S8x2000x4 : Shape := ⟨3, ![8, 2000, 4]⟩
abbrev S8x2000x2000 : Shape := ⟨3, ![8, 2000, 2000]⟩
abbrev S1x200x4 : Shape := ⟨3, ![1, 200, 4]⟩
abbrev S1x2000x4 : Shape := ⟨3, ![1, 2000, 4]⟩
abbrev S1x200x2000 : Shape := ⟨3, ![1, 200, 2000]⟩
abbrev S1x200x1 : Shape := ⟨3, ![1, 200, 1]⟩
abbrev S1x200 : Shape := ⟨2, ![1, 200]⟩
abbrev S1x2000x1 : Shape := ⟨3, ![1, 2000, 1]⟩
abbrev S1x2000 : Shape := ⟨2, ![1, 2000]⟩
abbrev S1x1x2000 : Shape := ⟨3, ![1, 1, 2000]⟩

abbrev nBuf : Space → Nat
  | .hbm => 3
  | .vmem => 6
  | .smem => 0
  | _ => 0

abbrev bufTy : (tb : Table) → Fin (tcTables nBuf tb) → BufTy
  | .hbm, ⟨0, _⟩ => ⟨S8x2000x4, .f32⟩
  | .hbm, ⟨1, _⟩ => ⟨S8x2000x4, .f32⟩
  | .hbm, ⟨2, _⟩ => ⟨S8x2000x2000, .f32⟩
  | .local _ .vmem, ⟨0, _⟩ => ⟨S1x200x4, .f32⟩
  | .local _ .vmem, ⟨1, _⟩ => ⟨S1x200x4, .f32⟩
  | .local _ .vmem, ⟨2, _⟩ => ⟨S1x2000x4, .f32⟩
  | .local _ .vmem, ⟨3, _⟩ => ⟨S1x2000x4, .f32⟩
  | .local _ .vmem, ⟨4, _⟩ => ⟨S1x200x2000, .f32⟩
  | .local _ .vmem, ⟨5, _⟩ => ⟨S1x200x2000, .f32⟩
  | _, _ => ⟨S8x2000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x200x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x200x2000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x200x4_S1x200x4_0_0_0 : ∀ a, (![0, 0, 0] : Fin 3 → Nat) a + S1x200x4.size a ≤ S1x200x4.size a
  h_S1x200x4 : 0 < S1x200x4.numel
  inb_S1x2000x4_S1x2000x4_0_0_0 : ∀ a, (![0, 0, 0] : Fin 3 → Nat) a + S1x2000x4.size a ≤ S1x2000x4.size a
  h_S1x2000x4 : 0 < S1x2000x4.numel
  slices_S1x200x4_o0_0_0_S1x200x1 : S1x200x4.Slices ![0, 0, 0] S1x200x1
  shapeCasts_S1x200x1_S1x200 : S1x200x1.ShapeCasts S1x200
  slices_S1x200x4_o0_0_1_S1x200x1 : S1x200x4.Slices ![0, 0, 1] S1x200x1
  slices_S1x200x4_o0_0_2_S1x200x1 : S1x200x4.Slices ![0, 0, 2] S1x200x1
  slices_S1x200x4_o0_0_3_S1x200x1 : S1x200x4.Slices ![0, 0, 3] S1x200x1
  slices_S1x2000x4_o0_0_0_S1x2000x1 : S1x2000x4.Slices ![0, 0, 0] S1x2000x1
  shapeCasts_S1x2000x1_S1x2000 : S1x2000x1.ShapeCasts S1x2000
  slices_S1x2000x4_o0_0_1_S1x2000x1 : S1x2000x4.Slices ![0, 0, 1] S1x2000x1
  slices_S1x2000x4_o0_0_2_S1x2000x1 : S1x2000x4.Slices ![0, 0, 2] S1x2000x1
  slices_S1x2000x4_o0_0_3_S1x2000x1 : S1x2000x4.Slices ![0, 0, 3] S1x2000x1
  shapeCasts_S1x200_S1x200x1 : S1x200.ShapeCasts S1x200x1
  shapeCasts_S1x2000_S1x1x2000 : S1x2000.ShapeCasts S1x1x2000
  broadcasts_S1x200x1_S1x200x2000 : S1x200x1.Broadcasts S1x200x2000
  broadcasts_S1x1x2000_S1x200x2000 : S1x1x2000.Broadcasts S1x200x2000
  inb_S1x200x2000_S1x200x2000_0_0_0 : ∀ a, (![0, 0, 0] : Fin 3 → Nat) a + S1x200x2000.size a ≤ S1x200x2000.size a
  h_S1x200x2000 : 0 < S1x200x2000.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x4.size a ≤ S8x2000x4.size a
  hwx0_0 : ∀ i : grid0.Coords, EltTy.bits .f32 = 32 ∨ (Rect.block (s := S8x2000x4) S1x200x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2000x4.size a ≤ S8x2000x4.size a
  hwx0_1 : ∀ i : grid0.Coords, EltTy.bits .f32 = 32 ∨ (Rect.block (s := S8x2000x4) S1x2000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x200x2000.size a ≤ S8x2000x2000.size a
  hwx0_2 : ∀ i : grid0.Coords, EltTy.bits .f32 = 32 ∨ (Rect.block (s := S8x2000x2000) S1x200x2000.size (cc0_transform_2 i) (hinb0_2 i)).WholeWords (EltTy.packing .f32)

variable [Facts₀]

abbrev win0_0 : Pipeline.Window sig grid0 :=
  Pipeline.Window.ofSpec (Memref.whole main_arg0) S1x200x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x200x2000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2000x4 : Shape := ⟨3, ![8, 2000, 4]⟩
abbrev S8x2000x1 : Shape := ⟨3, ![8, 2000, 1]⟩
abbrev S8x2000 : Shape := ⟨2, ![8, 2000]⟩
abbrev S_ : Shape := ⟨0, ![]⟩
abbrev S8x1x2000 : Shape := ⟨3, ![8, 1, 2000]⟩
abbrev S8x2000x2000 : Shape := ⟨3, ![8, 2000, 2000]⟩

abbrev nBuf : Space → Nat
  | .hbm => 86
  | .vmem => 0
  | .smem => 0
  | _ => 0

abbrev bufTy : (tb : Table) → Fin (tcTables nBuf tb) → BufTy
  | .hbm, ⟨0, _⟩ => ⟨S8x2000x4, .f32⟩
  | .hbm, ⟨1, _⟩ => ⟨S8x2000x4, .f32⟩
  | .hbm, ⟨2, _⟩ => ⟨S8x2000x1, .f32⟩
  | .hbm, ⟨3, _⟩ => ⟨S8x2000, .f32⟩
  | .hbm, ⟨4, _⟩ => ⟨S8x2000x1, .f32⟩
  | .hbm, ⟨5, _⟩ => ⟨S8x2000, .f32⟩
  | .hbm, ⟨6, _⟩ => ⟨S8x2000, .f32⟩
  | .hbm, ⟨7, _⟩ => ⟨S8x2000x1, .f32⟩
  | .hbm, ⟨8, _⟩ => ⟨S8x2000, .f32⟩
  | .hbm, ⟨9, _⟩ => ⟨S8x2000x1, .f32⟩
  | .hbm, ⟨10, _⟩ => ⟨S8x2000, .f32⟩
  | .hbm, ⟨11, _⟩ => ⟨S8x2000, .f32⟩
  | .hbm, ⟨12, _⟩ => ⟨S8x2000x1, .f32⟩
  | .hbm, ⟨13, _⟩ => ⟨S8x2000, .f32⟩
  | .hbm, ⟨14, _⟩ => ⟨S8x2000x1, .f32⟩
  | .hbm, ⟨15, _⟩ => ⟨S8x2000, .f32⟩
  | .hbm, ⟨16, _⟩ => ⟨S8x2000x1, .f32⟩
  | .hbm, ⟨17, _⟩ => ⟨S8x2000, .f32⟩
  | .hbm, ⟨18, _⟩ => ⟨S8x2000x1, .f32⟩
  | .hbm, ⟨19, _⟩ => ⟨S8x2000, .f32⟩
  | .hbm, ⟨20, _⟩ => ⟨S_, .f32⟩
  | .hbm, ⟨21, _⟩ => ⟨S8x2000, .f32⟩
  | .hbm, ⟨22, _⟩ => ⟨S8x2000, .f32⟩
  | .hbm, ⟨23, _⟩ => ⟨S_, .f32⟩
  | .hbm, ⟨24, _⟩ => ⟨S8x2000, .f32⟩
  | .hbm, ⟨25, _⟩ => ⟨S8x2000, .f32⟩
  | .hbm, ⟨26, _⟩ => ⟨S8x2000, .f32⟩
  | .hbm, ⟨27, _⟩ => ⟨S8x2000, .f32⟩
  | .hbm, ⟨28, _⟩ => ⟨S8x2000, .f32⟩
  | .hbm, ⟨29, _⟩ => ⟨S8x2000, .f32⟩
  | .hbm, ⟨30, _⟩ => ⟨S8x2000x1, .f32⟩
  | .hbm, ⟨31, _⟩ => ⟨S8x2000, .f32⟩
  | .hbm, ⟨32, _⟩ => ⟨S8x2000x1, .f32⟩
  | .hbm, ⟨33, _⟩ => ⟨S8x2000, .f32⟩
  | .hbm, ⟨34, _⟩ => ⟨S8x2000x1, .f32⟩
  | .hbm, ⟨35, _⟩ => ⟨S8x2000, .f32⟩
  | .hbm, ⟨36, _⟩ => ⟨S8x2000x1, .f32⟩
  | .hbm, ⟨37, _⟩ => ⟨S8x2000, .f32⟩
  | .hbm, ⟨38, _⟩ => ⟨S_, .f32⟩
  | .hbm, ⟨39, _⟩ => ⟨S8x2000, .f32⟩
  | .hbm, ⟨40, _⟩ => ⟨S8x2000, .f32⟩
  | .hbm, ⟨41, _⟩ => ⟨S_, .f32⟩
  | .hbm, ⟨42, _⟩ => ⟨S8x2000, .f32⟩
  | .hbm, ⟨43, _⟩ => ⟨S8x2000, .f32⟩
  | .hbm, ⟨44, _⟩ => ⟨S8x2000, .f32⟩
  | .hbm, ⟨45, _⟩ => ⟨S8x2000, .f32⟩
  | .hbm, ⟨46, _⟩ => ⟨S8x2000, .f32⟩
  | .hbm, ⟨47, _⟩ => ⟨S8x2000, .f32⟩
  | .hbm, ⟨48, _⟩ => ⟨S8x2000x1, .f32⟩
  | .hbm, ⟨49, _⟩ => ⟨S8x1x2000, .f32⟩
  | .hbm, ⟨50, _⟩ => ⟨S8x2000x2000, .f32⟩
  | .hbm, ⟨51, _⟩ => ⟨S8x2000x2000, .f32⟩
  | .hbm, ⟨52, _⟩ => ⟨S8x2000x2000, .f32⟩
  | .hbm, ⟨53, _⟩ => ⟨S8x2000x1, .f32⟩
  | .hbm, ⟨54, _⟩ => ⟨S8x1x2000, .f32⟩
  | .hbm, ⟨55, _⟩ => ⟨S8x2000x2000, .f32⟩
  | .hbm, ⟨56, _⟩ => ⟨S8x2000x2000, .f32⟩
  | .hbm, ⟨57, _⟩ => ⟨S8x2000x2000, .f32⟩
  | .hbm, ⟨58, _⟩ => ⟨S8x2000x1, .f32⟩
  | .hbm, ⟨59, _⟩ => ⟨S8x1x2000, .f32⟩
  | .hbm, ⟨60, _⟩ => ⟨S8x2000x2000, .f32⟩
  | .hbm, ⟨61, _⟩ => ⟨S8x2000x2000, .f32⟩
  | .hbm, ⟨62, _⟩ => ⟨S8x2000x2000, .f32⟩
  | .hbm, ⟨63, _⟩ => ⟨S8x2000x1, .f32⟩
  | .hbm, ⟨64, _⟩ => ⟨S8x1x2000, .f32⟩
  | .hbm, ⟨65, _⟩ => ⟨S8x2000x2000, .f32⟩
  | .hbm, ⟨66, _⟩ => ⟨S8x2000x2000, .f32⟩
  | .hbm, ⟨67, _⟩ => ⟨S8x2000x2000, .f32⟩
  | .hbm, ⟨68, _⟩ => ⟨S8x2000x2000, .f32⟩
  | .hbm, ⟨69, _⟩ => ⟨S_, .f32⟩
  | .hbm, ⟨70, _⟩ => ⟨S_, .f32⟩
  | .hbm, ⟨71, _⟩ => ⟨S8x2000x2000, .f32⟩
  | .hbm, ⟨72, _⟩ => ⟨S8x2000x2000, .f32⟩
  | .hbm, ⟨73, _⟩ => ⟨S8x2000x2000, .f32⟩
  | .hbm, ⟨74, _⟩ => ⟨S_, .f32⟩
  | .hbm, ⟨75, _⟩ => ⟨S_, .f32⟩
  | .hbm, ⟨76, _⟩ => ⟨S8x2000x2000, .f32⟩
  | .hbm, ⟨77, _⟩ => ⟨S8x2000x2000, .f32⟩
  | .hbm, ⟨78, _⟩ => ⟨S8x2000x2000, .f32⟩
  | .hbm, ⟨79, _⟩ => ⟨S8x2000x1, .f32⟩
  | .hbm, ⟨80, _⟩ => ⟨S8x1x2000, .f32⟩
  | .hbm, ⟨81, _⟩ => ⟨S8x2000x2000, .f32⟩
  | .hbm, ⟨82, _⟩ => ⟨S8x2000x2000, .f32⟩
  | .hbm, ⟨83, _⟩ => ⟨S8x2000x2000, .f32⟩
  | .hbm, ⟨84, _⟩ => ⟨S8x2000x2000, .f32⟩
  | .hbm, ⟨85, _⟩ => ⟨S8x2000x2000, .f32⟩
  | _, _ => ⟨S8x2000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_cst_1 : Ref sig .tc := ⟨.hbm, 38, rfl⟩
abbrev main_v34 : Ref sig .tc := ⟨.hbm, 39, rfl⟩
abbrev main_v35 : Ref sig .tc := ⟨.hbm, 40, rfl⟩
abbrev main_cst_2 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_cst_3 : Ref sig .tc := ⟨.hbm, 69, rfl⟩
abbrev main_call0_v0 : Ref sig .tc := ⟨.hbm, 70, rfl⟩
abbrev main_call0_v1 : Ref sig .tc := ⟨.hbm, 71, rfl⟩
abbrev main_v63 : Ref sig .tc := ⟨.hbm, 72, rfl⟩
abbrev main_v64 : Ref sig .tc := ⟨.hbm, 73, rfl⟩
abbrev main_cst_4 : Ref sig .tc := ⟨.hbm, 74, rfl⟩
abbrev main_call1_v0 : Ref sig .tc := ⟨.hbm, 75, rfl⟩
abbrev main_call1_v1 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩

abbrev nD : Nat := 1
abbrev τ : Topo := Topo.v7x

variable {F : FTy → Type} [FloatOps F]

class Facts₀ : Prop where
  slices_S8x2000x4_S8x2000x1_0_0_2 : S8x2000x4.Slices ![0, 0, 2] S8x2000x1
  shapeCasts_S8x2000x1_S8x2000 : S8x2000x1.ShapeCasts S8x2000
  slices_S8x2000x4_S8x2000x1_0_0_3 : S8x2000x4.Slices ![0, 0, 3] S8x2000x1
  slices_S8x2000x4_S8x2000x1_0_0_0 : S8x2000x4.Slices ![0, 0, 0] S8x2000x1
  slices_S8x2000x4_S8x2000x1_0_0_1 : S8x2000x4.Slices ![0, 0, 1] S8x2000x1
  bcast_S_S8x2000 : S_.BroadcastsInDim S8x2000 (![] : Fin 0 → Fin S8x2000.rank)
  bcast_S8x2000_S8x2000x1_0_1 : S8x2000.BroadcastsInDim S8x2000x1 (![0, 1] : Fin 2 → Fin S8x2000x1.rank)
  bcast_S8x2000_S8x1x2000_0_2 : S8x2000.BroadcastsInDim S8x1x2000 (![0, 2] : Fin 2 → Fin S8x1x2000.rank)
  bcast_S8x2000x1_S8x2000x2000_0_1_2 : S8x2000x1.BroadcastsInDim S8x2000x2000 (![0, 1, 2] : Fin 3 → Fin S8x2000x2000.rank)
  bcast_S8x1x2000_S8x2000x2000_0_1_2 : S8x1x2000.BroadcastsInDim S8x2000x2000 (![0, 1, 2] : Fin 3 → Fin S8x2000x2000.rank)
  bcast_S_S8x2000x2000 : S_.BroadcastsInDim S8x2000x2000 (![] : Fin 0 → Fin S8x2000x2000.rank)

variable [Facts₀]

class Facts : Prop extends Facts₀ where

variable [Facts]
-- ==== Proof.BoxOverlap.lean ====
/-
  Pairwise intersection-over-union of axis-aligned boxes, over the extended reals.

  A box is four numbers (xc, yc, w, h): its centre and its two extents. Along one axis it is the interval
  [c - w/2, c + w/2]. Two such intervals overlap in a segment of length
      max 0 (min (c + w/2) (c' + w'/2) - max (c - w/2) (c' - w'/2)),
  the intersection of two boxes is the product of the two axes' overlap lengths, their union is the sum of the two
  areas minus the intersection, and the score is intersection / union. Given two tables of boxes of extents
  [8, 2000, 4], the result at (n, p, q) is the score of box p of batch n of the first table against box q of batch n
  of the second.

  Every operation here is the exact one on the extended reals: sums, differences, products, max, min, and the quotient
  `Ideal.div`. The only constants are the f32 words of one half and of zero, kept as words: the same word stands on
  both sides of the comparison this specification serves, so its value is never needed.
-/
import Idealize.ShloMosaic.PureOps.Ideal
import Idealize.ShloMosaic.Lib.ValueIdx

noncomputable section

namespace Cert.BoxOverlap

open Idealize.ShloMosaic Idealize.ShloMosaic.ValueIdx

/-- The f32 word of one half, as an extended real. -/
abbrev half : Ideal .f32 := Ideal.ofBits .f32 0x3F000000#32

/-- The f32 word of zero, as an extended real. -/
abbrev zero : Ideal .f32 := Ideal.ofBits .f32 0x00000000#32

/-- Lower end of the interval of centre `c` and width `w`. -/
def lo (c w : Ideal .f32) : Ideal .f32 := c - w * half

/-- Upper end of the interval of centre `c` and width `w`. -/
def hi (c w : Ideal .f32) : Ideal .f32 := c + w * half

/-- Length of the overlap of two intervals given by their ends, clipped below at zero. -/
def overlap (l u l' u' : Ideal .f32) : Ideal .f32 := max zero (min u u' - max l l')

/-- Intersection over union, from the two areas and the two axes' overlap lengths. -/
def score (area area' ox oy : Ideal .f32) : Ideal .f32 := Ideal.div (ox * oy) (area + area' - ox * oy)

/-- The score of a box `a = (a0, a1, a2, a3)` against a box `b = (b0, b1, b2, b3)`. -/
def iou (a0 a1 a2 a3 b0 b1 b2 b3 : Ideal .f32) : Ideal .f32 :=
  score (a2 * a3) (b2 * b3)
    (overlap (lo a0 a2) (hi a0 a2) (lo b0 b2) (hi b0 b2))
    (overlap (lo a1 a3) (hi a1 a3) (lo b1 b3) (hi b1 b3))

/-- The two tables' shape, and the result's. -/
abbrev Boxes : Shape := ⟨3, ![8, 2000, 4]⟩
abbrev Pairs : Shape := ⟨3, ![8, 2000, 2000]⟩

/-- The result at `(n, p, q)`: box `p` of batch `n` of `x` against box `q` of batch `n` of `y`. -/
def pairAt (x y : Boxes.Idx → Ideal .f32) (n : Fin 8) (p q : Fin 2000) : Ideal .f32 :=
  iou (x (ix3 n p (0 : Fin 4))) (x (ix3 n p (1 : Fin 4))) (x (ix3 n p (2 : Fin 4))) (x (ix3 n p (3 : Fin 4)))
      (y (ix3 n q (0 : Fin 4))) (y (ix3 n q (1 : Fin 4))) (y (ix3 n q (2 : Fin 4))) (y (ix3 n q (3 : Fin 4)))

/-- The whole result array as one function of the two tables. -/
def pairwise (x y : Boxes.Idx → Ideal .f32) : Pairs.Idx → Ideal .f32 :=
  fun i => pairAt x y (i 0) (i 1) (i 2)

theorem pairwise_ix3 (x y : Boxes.Idx → Ideal .f32) (n : Fin 8) (p q : Fin 2000) :
    pairwise x y (ix3 n p q) = pairAt x y n p q := rfl

end Cert.BoxOverlap

end
-- ==== Proof.LibColumn.lean ====
/-
  A general layout lemma: one column of a rank-3 table, with the unit axis the slice leaves dropped.

  From a table of extents `[a, b, c]` take the slice of extents `[a, b, 1]` at offsets `(0, 0, o)` — the column
  `o` of every row — and cast it to `[a, b]`. Read at `(i, j)` this is the table at `(i, j, o)`: the cast keeps
  the row-major position `i · b + j`, and the slice shifts the last coordinate by its offset.
-/
import Idealize.ShloMosaic.Lib.Pipeline.Value
import Idealize.ShloMosaic.Lib.ValueIdx

namespace Cert.Column

open Idealize.ShloMosaic Idealize.ShloMosaic.ValueIdx

variable {α : Type}

/-- Column `o` of an `[a, b, c]` table, as an `[a, b]` array, reads at `(i, j)` the table at `(i, j, k)`
    where `k` is the coordinate `o`. -/
theorem column_apply {a b c : ℕ} (o : ℕ) (x : (⟨3, ![a, b, c]⟩ : Shape).Idx → α)
    (hs : (⟨3, ![a, b, c]⟩ : Shape).Slices ![0, 0, o] ⟨3, ![a, b, 1]⟩)
    (hc : (⟨3, ![a, b, 1]⟩ : Shape).ShapeCasts ⟨2, ![a, b]⟩) (i : Fin a) (j : Fin b) (k : Fin c) (hk : k.val = o) :
    shapeCast ⟨2, ![a, b]⟩ (extractStridedSlice ⟨3, ![a, b, 1]⟩ ![0, 0, o] x hs) hc (ix2 i j) = x (ix3 i j k) := by
  refine (shapeCast_apply _ hc (ix2 i j) (ix3 i j (0 : Fin 1)) ?_).trans ?_
  · rw [Shape.rowMajor_val_three, Shape.rowMajor_val_two]
    show (i.val * b + j.val) * 1 + 0 = i.val * b + j.val
    omega
  · refine extractStridedSlice_apply ![0, 0, o] x hs (ix3 i j (0 : Fin 1)) (ix3 i j k) fun ax => ?_
    match ax with
    | ⟨0, _⟩ => show i.val = 0 + i.val; omega
    | ⟨1, _⟩ => show j.val = 0 + j.val; omega
    | ⟨2, _⟩ => show k.val = o + 0; omega

end Cert.Column
-- ==== Proof.KernelRows.lean ====
/-
  The kernel body's per-box quantities, read at a row.

  The body loads a block `a` of 200 boxes of the first table (extents [1, 200, 4]) and the whole batch `b` of 2000
  boxes of the second (extents [1, 2000, 4]). Before any pairing it computes, for every box of each, from its four
  columns (xc, yc, w, h): the area w · h, the half extents w/2 and h/2, and the interval ends xc ± w/2, yc ± h/2.
  Each of these is a rank-2 array of extents [1, 200] or [1, 2000]; read at the row of box `p` (or `q`) it is the
  corresponding expression in that box's four numbers. A column of the block is taken by slicing it out and dropping
  the unit axis the slice leaves (`Column.column_apply`).
-/
import proofs.«100093_j45973329936551_1_alg».proof.Proof.Gen.KernelIdeal.Skeleton
import proofs.«100093_j45973329936551_1_alg».proof.Proof.BoxOverlap
import proofs.«100093_j45973329936551_1_alg».proof.Proof.LibColumn

noncomputable section

namespace Cert.KernelIdeal.Rows

open Cert.KernelIdeal Cert.KernelIdeal.Gen Idealize.ShloMosaic Idealize.ShloMosaic.ValueIdx Cert.BoxOverlap Cert.Column

variable (a : Vec Ideal S1x200x4 .f32) (b : Vec Ideal S1x2000x4 .f32) (p : Fin 200) (q : Fin 2000)

/-! ## The four columns of a box of the first block -/

theorem xc_a : k0_pay2 a (ix2 (0 : Fin 1) p) = a (ix3 (0 : Fin 1) p (0 : Fin 4)) := by
  unfold k0_pay2; exact column_apply 0 a _ _ 0 p 0 rfl

theorem yc_a : k0_pay3 a (ix2 (0 : Fin 1) p) = a (ix3 (0 : Fin 1) p (1 : Fin 4)) := by
  unfold k0_pay3; exact column_apply 1 a _ _ 0 p 1 rfl

theorem w_a : k0_pay4 a (ix2 (0 : Fin 1) p) = a (ix3 (0 : Fin 1) p (2 : Fin 4)) := by
  unfold k0_pay4; exact column_apply 2 a _ _ 0 p 2 rfl

theorem h_a : k0_pay5 a (ix2 (0 : Fin 1) p) = a (ix3 (0 : Fin 1) p (3 : Fin 4)) := by
  unfold k0_pay5; exact column_apply 3 a _ _ 0 p 3 rfl

/-! ## The four columns of a box of the second block -/

theorem xc_b : k0_pay6 b (ix2 (0 : Fin 1) q) = b (ix3 (0 : Fin 1) q (0 : Fin 4)) := by
  unfold k0_pay6; exact column_apply 0 b _ _ 0 q 0 rfl

theorem yc_b : k0_pay7 b (ix2 (0 : Fin 1) q) = b (ix3 (0 : Fin 1) q (1 : Fin 4)) := by
  unfold k0_pay7; exact column_apply 1 b _ _ 0 q 1 rfl

theorem w_b : k0_pay8 b (ix2 (0 : Fin 1) q) = b (ix3 (0 : Fin 1) q (2 : Fin 4)) := by
  unfold k0_pay8; exact column_apply 2 b _ _ 0 q 2 rfl

theorem h_b : k0_pay9 b (ix2 (0 : Fin 1) q) = b (ix3 (0 : Fin 1) q (3 : Fin 4)) := by
  unfold k0_pay9; exact column_apply 3 b _ _ 0 q 3 rfl

/-! ## Areas and half extents -/

/-- The area of box `p` of the first block. -/
theorem area_a : k0_pay10 a (ix2 (0 : Fin 1) p) = a (ix3 (0 : Fin 1) p (2 : Fin 4)) * a (ix3 (0 : Fin 1) p (3 : Fin 4)) := by
  unfold k0_pay10
  show k0_pay4 a (ix2 (0 : Fin 1) p) * k0_pay5 a (ix2 (0 : Fin 1) p) = _
  rw [w_a, h_a]

/-- The area of box `q` of the second block. -/
theorem area_b : k0_pay11 b (ix2 (0 : Fin 1) q) = b (ix3 (0 : Fin 1) q (2 : Fin 4)) * b (ix3 (0 : Fin 1) q (3 : Fin 4)) := by
  unfold k0_pay11
  show k0_pay8 b (ix2 (0 : Fin 1) q) * k0_pay9 b (ix2 (0 : Fin 1) q) = _
  rw [w_b, h_b]

theorem halfw_a : k0_pay12 a (ix2 (0 : Fin 1) p) = a (ix3 (0 : Fin 1) p (2 : Fin 4)) * half := by
  unfold k0_pay12
  show k0_pay4 a (ix2 (0 : Fin 1) p) * half = _
  rw [w_a]

theorem halfh_a : k0_pay13 a (ix2 (0 : Fin 1) p) = a (ix3 (0 : Fin 1) p (3 : Fin 4)) * half := by
  unfold k0_pay13
  show k0_pay5 a (ix2 (0 : Fin 1) p) * half = _
  rw [h_a]

theorem halfw_b : k0_pay15 b (ix2 (0 : Fin 1) q) = b (ix3 (0 : Fin 1) q (2 : Fin 4)) * half := by
  unfold k0_pay15
  show k0_pay8 b (ix2 (0 : Fin 1) q) * half = _
  rw [w_b]

theorem halfh_b : k0_pay16 b (ix2 (0 : Fin 1) q) = b (ix3 (0 : Fin 1) q (3 : Fin 4)) * half := by
  unfold k0_pay16
  show k0_pay9 b (ix2 (0 : Fin 1) q) * half = _
  rw [h_b]

/-! ## The upper ends along y, which the body keeps as rank-2 arrays -/

theorem hi_y_a : k0_pay14 a (ix2 (0 : Fin 1) p) = hi (a (ix3 (0 : Fin 1) p (1 : Fin 4))) (a (ix3 (0 : Fin 1) p (3 : Fin 4))) := by
  unfold k0_pay14
  show k0_pay3 a (ix2 (0 : Fin 1) p) + k0_pay13 a (ix2 (0 : Fin 1) p) = _
  rw [yc_a, halfh_a]; rfl

theorem hi_y_b : k0_pay17 b (ix2 (0 : Fin 1) q) = hi (b (ix3 (0 : Fin 1) q (1 : Fin 4))) (b (ix3 (0 : Fin 1) q (3 : Fin 4))) := by
  unfold k0_pay17
  show k0_pay7 b (ix2 (0 : Fin 1) q) + k0_pay16 b (ix2 (0 : Fin 1) q) = _
  rw [yc_b, halfh_b]; rfl

end Cert.KernelIdeal.Rows

end
-- ==== Proof.LibLayoutRank3.lean ====
/-
  Three re-layings between rank 2 and rank 3, read at an index given by its coordinates.

  A product `p[i, j, l] = u[i, j] · v[j, l]` over a common three-axis index set is formed by giving `u` a trailing axis of
  extent one and `v` a leading axis of extent one, then repeating each along its new axis. Read at `(i, j, l)`:
    * `[a, b] → [a, b, 1]`, a cast: the entry at `(i, j, 0)` is the operand's at `(i, j)` (same row-major position);
    * `[a, b, 1] → [a, b, c]`, a broadcast: the entry at `(i, j, l)` is the operand's at `(i, j, 0)`;
    * `[1, b, c] → [a, b, c]`, a broadcast: the entry at `(i, j, l)` is the operand's at `(0, j, l)`.
  (The cast `[a, b] → [1, a, b]` is the library's `shapeCast_ab_1ab_apply`.) The extents are arbitrary naturals; on an axis
  whose extent happens to be one the only coordinate is 0, which is what a broadcast reads there anyway.
-/
import Idealize.ShloMosaic.Lib.Pipeline.Value
import Idealize.ShloMosaic.Lib.ValueIdx

namespace Cert.LayoutRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, l)`, the operand at `(0, j, l)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ v h (ix3 i j l) = v (ix3 (0 : Fin 1) j l) := by
  refine broadcastTo_apply v h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if c = 1 then 0 else l.val
    split
    · have := l.isLt; omega
    · rfl

end Cert.LayoutRank3
-- ==== Proof.LibMiddleUnitAxis.lean ====
/-
  A general layout lemma: a unit axis inserted in the MIDDLE of a rank-2 shape.
-/
import Idealize.ShloMosaic.Lib.Pipeline.Value
import Idealize.ShloMosaic.Lib.ValueIdx

namespace Idealize.ShloMosaic.ValueIdx

variable {α : Type}

/-- An `[a, b]` array cast to `[a, 1, b]` reads, at `(i, u, j)`, the operand at `(i, j)`, whatever the unit
    coordinate `u`: both indices have row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.ValueIdx
-- ==== Proof.LibOuterPair.lean ====
/-
  The two halves of an outer pairing `x[:, :, None] ∘ x[:, None, :]`, read at an index given by its coordinates.

  A rank-2 array `A` of extents `[a, b]` enters an all-pairs computation over `[a, b, b]` twice: once with a trailing unit axis,
  repeated along it, so that position `(r, i, j)` reads `A (r, i)`; once with a unit axis in the middle, repeated along it, so that
  position `(r, i, j)` reads `A (r, j)`. Also here: the broadcast `[a, 1, c] → [a, b, c]` by itself, and a rank-3 array whose
  three extents are one cast to the rank-2 array of the same kind.
-/
import proofs.«100093_j45973329936551_1_alg».proof.Proof.LibLayoutRank3
import proofs.«100093_j45973329936551_1_alg».proof.Proof.LibMiddleUnitAxis
import Idealize.ShloMosaic.Lib.Pipeline.Value
import Idealize.ShloMosaic.Lib.ValueIdx

namespace Cert.OuterPair

open Idealize.ShloMosaic Idealize.ShloMosaic.ValueIdx Cert.LayoutRank3

variable {α : Type}

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-- The left half of the pairing: `A` with a trailing unit axis, repeated along it, reads `A (r, i)` at `(r, i, j)`. -/
theorem left_apply {a b c : ℕ} (A : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (r : Fin a) (i : Fin b) (j : Fin c) :
    broadcastTo ⟨3, ![a, b, c]⟩ (shapeCast ⟨3, ![a, b, 1]⟩ A h) h' (ix3 r i j) = A (ix2 r i) :=
  (broadcastTo_ab1_abc_apply _ h' r i j).trans (shapeCast_ab_ab1_apply A h r i 0)

/-- The right half of the pairing: `A` with a unit axis in the middle, repeated along it, reads `A (r, j)` at `(r, i, j)`. -/
theorem right_apply {a b c : ℕ} (A : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (r : Fin a) (i : Fin b) (j : Fin c) :
    broadcastTo ⟨3, ![a, b, c]⟩ (shapeCast ⟨3, ![a, 1, c]⟩ A h) h' (ix3 r i j) = A (ix2 r j) :=
  (broadcastTo_a1c_abc_apply _ h' r i j).trans (shapeCast_ab_a1b_apply A h r 0 j)

/-- A `[1, 1, 1]` array cast to `[1, 1]`: the one entry. -/
theorem shapeCast_111_11_apply (x : (⟨3, ![1, 1, 1]⟩ : Shape).Idx → α)
    (h : (⟨3, ![1, 1, 1]⟩ : Shape).ShapeCasts ⟨2, ![1, 1]⟩) :
    shapeCast ⟨2, ![1, 1]⟩ x h (ix2 (0 : Fin 1) (0 : Fin 1)) = x (ix3 (0 : Fin 1) (0 : Fin 1) (0 : Fin 1)) :=
  shapeCast_apply x h _ _ (by rw [Shape.rowMajor_val_three, Shape.rowMajor_val_two]; rfl)

end Cert.OuterPair
-- ==== Proof.KernelPairs.lean ====
/-
  The kernel body's pairings, read at a pair of boxes.

  Every all-pairs quantity of the body has extents [1, 200, 2000]: position (0, p, q) pairs box `p` of the first
  block with box `q` of the second. A per-box array of the first block enters with a trailing unit axis repeated
  along it (position (0, p, q) reads row p), one of the second block with a middle unit axis repeated along it
  (position (0, p, q) reads row q). So at (0, p, q):
    * the larger of the two lower ends along x, and along y (two of the body's stored intermediates);
    * the upper ends along x, kept as [1, 200, 1] and [1, 1, 2000] arrays until the final stage pairs them;
    * the final stage: overlap lengths along x and y (differences of the smaller upper end and the larger lower end,
      clipped below at the zero word), their product, the two areas' sum minus it, and the quotient.
  Put together, the body's stored value at (0, p, q) is the intersection-over-union of box p against box q.
-/
import proofs.«100093_j45973329936551_1_alg».proof.Proof.Gen.KernelIdeal.Skeleton
import proofs.«100093_j45973329936551_1_alg».proof.Proof.BoxOverlap
import proofs.«100093_j45973329936551_1_alg».proof.Proof.KernelRows
import proofs.«100093_j45973329936551_1_alg».proof.Proof.LibOuterPair

noncomputable section

namespace Cert.KernelIdeal.Pairs

open Cert.KernelIdeal Cert.KernelIdeal.Gen Idealize.ShloMosaic Idealize.ShloMosaic.ValueIdx Cert.BoxOverlap
open Cert.LayoutRank3 Cert.OuterPair Cert.KernelIdeal.Rows

variable (a : Vec Ideal S1x200x4 .f32) (b : Vec Ideal S1x2000x4 .f32) (p : Fin 200) (q : Fin 2000)

/-- The larger lower end along x of the pair (p, q). -/
theorem lo_x : k0_pay18 a b (ix3 (0 : Fin 1) p q) = max (lo (a (ix3 (0 : Fin 1) p (0 : Fin 4))) (a (ix3 (0 : Fin 1) p (2 : Fin 4)))) (lo (b (ix3 (0 : Fin 1) q (0 : Fin 4))) (b (ix3 (0 : Fin 1) q (2 : Fin 4)))) := by
  unfold k0_pay18
  dsimp only [maximumf]
  rw [left_apply, right_apply]
  show max (k0_pay2 a (ix2 (0 : Fin 1) p) - k0_pay12 a (ix2 (0 : Fin 1) p)) (k0_pay6 b (ix2 (0 : Fin 1) q) - k0_pay15 b (ix2 (0 : Fin 1) q)) = _
  rw [xc_a, halfw_a, xc_b, halfw_b]; rfl

/-- The larger lower end along y of the pair (p, q). -/
theorem lo_y : k0_pay19 a b (ix3 (0 : Fin 1) p q) = max (lo (a (ix3 (0 : Fin 1) p (1 : Fin 4))) (a (ix3 (0 : Fin 1) p (3 : Fin 4)))) (lo (b (ix3 (0 : Fin 1) q (1 : Fin 4))) (b (ix3 (0 : Fin 1) q (3 : Fin 4)))) := by
  unfold k0_pay19
  dsimp only [maximumf]
  rw [left_apply, right_apply]
  show max (k0_pay3 a (ix2 (0 : Fin 1) p) - k0_pay13 a (ix2 (0 : Fin 1) p)) (k0_pay7 b (ix2 (0 : Fin 1) q) - k0_pay16 b (ix2 (0 : Fin 1) q)) = _
  rw [yc_a, halfh_a, yc_b, halfh_b]; rfl

/-- The upper end along x of box p, kept with a trailing unit axis. -/
theorem hi_x_a : k0_pay20 a (ix3 (0 : Fin 1) p (0 : Fin 1)) = hi (a (ix3 (0 : Fin 1) p (0 : Fin 4))) (a (ix3 (0 : Fin 1) p (2 : Fin 4))) := by
  unfold k0_pay20
  rw [shapeCast_ab_ab1_apply]
  show k0_pay2 a (ix2 (0 : Fin 1) p) + k0_pay12 a (ix2 (0 : Fin 1) p) = _
  rw [xc_a, halfw_a]; rfl

/-- The upper end along x of box q, kept with a middle unit axis. -/
theorem hi_x_b : k0_pay21 b (ix3 (0 : Fin 1) (0 : Fin 1) q) = hi (b (ix3 (0 : Fin 1) q (0 : Fin 4))) (b (ix3 (0 : Fin 1) q (2 : Fin 4))) := by
  unfold k0_pay21
  rw [shapeCast_ab_a1b_apply]
  show k0_pay6 b (ix2 (0 : Fin 1) q) + k0_pay15 b (ix2 (0 : Fin 1) q) = _
  rw [xc_b, halfw_b]; rfl

/-- The final stage over arbitrary inputs of its shapes: at (0, p, q) it is the score of the two areas and the two
    overlap lengths, each length the smaller upper end minus the (already paired) larger lower end, clipped at zero. -/
theorem final_stage (v18 : FVec Ideal S1x200 .f32) (v19 : FVec Ideal S1x2000 .f32) (v27 : FVec Ideal S1x200 .f32)
    (v35 : FVec Ideal S1x2000 .f32) (v40 v45 : FVec Ideal S1x200x2000 .f32) (v46 : FVec Ideal S1x200x1 .f32)
    (v47 : FVec Ideal S1x1x2000 .f32) (p : Fin 200) (q : Fin 2000) :
    k0_pay1 v18 v19 v27 v35 v40 v45 v46 v47 (ix3 (0 : Fin 1) p q) =
      score (v18 (ix2 (0 : Fin 1) p)) (v19 (ix2 (0 : Fin 1) q))
        (max zero (min (v46 (ix3 (0 : Fin 1) p (0 : Fin 1))) (v47 (ix3 (0 : Fin 1) (0 : Fin 1) q)) - v40 (ix3 (0 : Fin 1) p q)))
        (max zero (min (v27 (ix2 (0 : Fin 1) p)) (v35 (ix2 (0 : Fin 1) q)) - v45 (ix3 (0 : Fin 1) p q))) := by
  have e46 := broadcastTo_ab1_abc_apply v46 broadcasts_S1x200x1_S1x200x2000 (0 : Fin 1) p q
  have e47 := broadcastTo_a1c_abc_apply v47 broadcasts_S1x1x2000_S1x200x2000 (0 : Fin 1) p q
  have e27 := left_apply v27 shapeCasts_S1x200_S1x200x1 broadcasts_S1x200x1_S1x200x2000 (0 : Fin 1) p q
  have e35 := right_apply v35 shapeCasts_S1x2000_S1x1x2000 broadcasts_S1x1x2000_S1x200x2000 (0 : Fin 1) p q
  have e18 := left_apply v18 shapeCasts_S1x200_S1x200x1 broadcasts_S1x200x1_S1x200x2000 (0 : Fin 1) p q
  have e19 := right_apply v19 shapeCasts_S1x2000_S1x1x2000 broadcasts_S1x1x2000_S1x200x2000 (0 : Fin 1) p q
  unfold k0_pay1
  dsimp only [divf, mulf, subf, addf, maximumf, minimumf, broadcast]
  rw [e46, e47, e27, e35, e18, e19]
  rfl

/-- THE BODY'S STORED VALUE at (0, p, q): the score of box p of the first block against box q of the second. -/
theorem body_apply :
    k0_pay1 (k0_pay10 a) (k0_pay11 b) (k0_pay14 a) (k0_pay17 b) (k0_pay18 a b) (k0_pay19 a b) (k0_pay20 a) (k0_pay21 b) (ix3 (0 : Fin 1) p q)
      = iou (a (ix3 (0 : Fin 1) p (0 : Fin 4))) (a (ix3 (0 : Fin 1) p (1 : Fin 4))) (a (ix3 (0 : Fin 1) p (2 : Fin 4))) (a (ix3 (0 : Fin 1) p (3 : Fin 4))) (b (ix3 (0 : Fin 1) q (0 : Fin 4))) (b (ix3 (0 : Fin 1) q (1 : Fin 4))) (b (ix3 (0 : Fin 1) q (2 : Fin 4))) (b (ix3 (0 : Fin 1) q (3 : Fin 4))) := by
  rw [final_stage, area_a, area_b, hi_x_a, hi_x_b, lo_x, hi_y_a, hi_y_b, lo_y]
  rfl

end Cert.KernelIdeal.Pairs

end
-- ==== Proof.KernelArray.lean ====
/-
  From blocks to the whole array: after the run the kernel's output is `pairwise` of its two arguments.

  The grid has 8 × 10 points. Point (n, j) is handed rows 200·j … 200·j + 199 of batch n of the first table (a block
  of extents [1, 200, 4]), the whole batch n of the second table (a block of extents [1, 2000, 4]), and writes back
  rows 200·j … 200·j + 199 of batch n of the result (a block of extents [1, 200, 2000]). An index (0, p, q) of the
  output block is index (n, 200·j + p, q) of the result array; there the body stored the score of box p of its first
  block against box q of its second, and those are box 200·j + p of batch n of the first table and box q of batch n of
  the second: the block is the restriction of `pairwise` to its rows. The 80 blocks tile the result array (the block
  that holds row r of batch n is (n, r / 200)), so the array after the run is `pairwise` everywhere.
-/
import proofs.«100093_j45973329936551_1_alg».proof.Proof.Gen.KernelIdeal.Frame
import Idealize.ShloMosaic.Lib.Pipeline.Value
import proofs.«100093_j45973329936551_1_alg».proof.Proof.BoxOverlap
import proofs.«100093_j45973329936551_1_alg».proof.Proof.KernelPairs

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.BoxOverlap
open Idealize.ShloMosaic.Pipeline (Dat)

variable (m : (ℓ : Loc nD τ sig) → Buf (Elt Ideal) ℓ) (ρ : Dev nD → PrngReg)

/-- The body loads and stores through whole-block rectangles: offsets zero on every axis. -/
theorem zero_offsets : (![0, 0, 0] : Fin 3 → Nat) = fun _ => 0 := funext fun a => by fin_cases a <;> rfl

/-- The three index maps over the grid: the first table's block moves with the output's on the batch and row axes, the
    second table's on the batch axis only, and every other block index is zero; the output's stay in range. -/
theorem index_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 7
    ∧ win0_2.index t (1 : Fin 3) ≤ 9 :=
  (by decide +kernel : ∀ t : Fin grid0.N, _)

/-- Every block (n, j) of the result is some point's. -/
theorem index_onto : ∀ (n : Fin 8) (j : Fin 10), ∃ t : Fin cfg0.N, win0_2.index t = ![n.val, j.val, 0] :=
  (by decide +kernel : ∀ (n : Fin 8) (j : Fin 10), ∃ t : Fin grid0.N, win0_2.index t = ![n.val, j.val, 0])

/-- WHAT POINT `t` WRITES BACK is block `t` of `pairwise` of the two argument arrays. -/
theorem flushed_eq (c : Dev nD) (t : Fin cfg0.N) :
    (dats m 0 c).flushed 2 t
      = ((cfg0.win 2).blk t).view.read (Elt Ideal) (pairwise (V m c main_arg0) (V m c main_arg1)) := by
  show (cfg0.win 2).cut (grid0.coords t) ((dats m 0 c).after 2 t) = _
  rw [after0_2]
  unfold out0_2
  rw [View.canon_unit_zero zero_offsets]
  simp only [View.ld_unit_zero (S := S1x200x4) zero_offsets, View.ld_unit_zero (S := S1x2000x4) zero_offsets]
  obtain ⟨e00, e01, e02, e10, e11, e12, e22, -, -⟩ := index_facts t
  funext j
  revert j
  show ∀ j : S1x200x2000.Idx,
    k0_pay1 (k0_pay10 (iblk m c 0 t)) (k0_pay11 (iblk m c 1 t)) (k0_pay14 (iblk m c 0 t)) (k0_pay17 (iblk m c 1 t))
        (k0_pay18 (iblk m c 0 t) (iblk m c 1 t)) (k0_pay19 (iblk m c 0 t) (iblk m c 1 t)) (k0_pay20 (iblk m c 0 t))
        (k0_pay21 (iblk m c 1 t)) j
      = pairwise (V m c main_arg0) (V m c main_arg1) (((cfg0.win 2).blk t).view.emb j)
  intro j
  obtain ⟨u, p, q, rfl⟩ : ∃ (u : Fin 1) (p : Fin 200) (q : Fin 2000), j = ix3 u p q := ⟨j 0, j 1, j 2, eq_ix3 j⟩
  obtain rfl : u = 0 := Subsingleton.elim _ _
  rw [Pairs.body_apply (iblk m c 0 t) (iblk m c 1 t) p q]
  generalize he : ((cfg0.win 2).blk t).view.emb (ix3 (0 : Fin 1) p q) = e
  have hp := p.isLt
  have hq := q.isLt
  -- the first block's box p is box (e 0, e 1) of the first table
  have hA : ∀ k : Fin 4, ((cfg0.win 0).blk t).view.emb (ix3 (0 : Fin 1) p k) = ix3 (e 0) (e 1) k := by
    intro k; subst he
    funext d; apply Fin.ext
    have hk := k.isLt
    match d with
    | ⟨0, _⟩ => show win0_0.index t (0 : Fin 3) * 1 + 1 * 0 = win0_2.index t (0 : Fin 3) * 1 + 1 * 0; omega
    | ⟨1, _⟩ => show win0_0.index t (1 : Fin 3) * 200 + 1 * p.val = win0_2.index t (1 : Fin 3) * 200 + 1 * p.val; omega
    | ⟨2, _⟩ => show win0_0.index t (2 : Fin 3) * 4 + 1 * k.val = k.val; omega
  -- the second block's box q is box (e 0, e 2) of the second table
  have hB : ∀ k : Fin 4, ((cfg0.win 1).blk t).view.emb (ix3 (0 : Fin 1) q k) = ix3 (e 0) (e 2) k := by
    intro k; subst he
    funext d; apply Fin.ext
    have hk := k.isLt
    match d with
    | ⟨0, _⟩ => show win0_1.index t (0 : Fin 3) * 1 + 1 * 0 = win0_2.index t (0 : Fin 3) * 1 + 1 * 0; omega
    | ⟨1, _⟩ => show win0_1.index t (1 : Fin 3) * 2000 + 1 * q.val = win0_2.index t (2 : Fin 3) * 2000 + 1 * q.val; omega
    | ⟨2, _⟩ => show win0_1.index t (2 : Fin 3) * 4 + 1 * k.val = k.val; omega
  show iou (V m c main_arg0 (((cfg0.win 0).blk t).view.emb (ix3 (0 : Fin 1) p (0 : Fin 4))))
        (V m c main_arg0 (((cfg0.win 0).blk t).view.emb (ix3 (0 : Fin 1) p (1 : Fin 4))))
        (V m c main_arg0 (((cfg0.win 0).blk t).view.emb (ix3 (0 : Fin 1) p (2 : Fin 4))))
        (V m c main_arg0 (((cfg0.win 0).blk t).view.emb (ix3 (0 : Fin 1) p (3 : Fin 4))))
        (V m c main_arg1 (((cfg0.win 1).blk t).view.emb (ix3 (0 : Fin 1) q (0 : Fin 4))))
        (V m c main_arg1 (((cfg0.win 1).blk t).view.emb (ix3 (0 : Fin 1) q (1 : Fin 4))))
        (V m c main_arg1 (((cfg0.win 1).blk t).view.emb (ix3 (0 : Fin 1) q (2 : Fin 4))))
        (V m c main_arg1 (((cfg0.win 1).blk t).view.emb (ix3 (0 : Fin 1) q (3 : Fin 4))))
      = iou (V m c main_arg0 (ix3 (e 0) (e 1) (0 : Fin 4))) (V m c main_arg0 (ix3 (e 0) (e 1) (1 : Fin 4))) (V m c main_arg0 (ix3 (e 0) (e 1) (2 : Fin 4))) (V m c main_arg0 (ix3 (e 0) (e 1) (3 : Fin 4)))
          (V m c main_arg1 (ix3 (e 0) (e 2) (0 : Fin 4))) (V m c main_arg1 (ix3 (e 0) (e 2) (1 : Fin 4))) (V m c main_arg1 (ix3 (e 0) (e 2) (2 : Fin 4))) (V m c main_arg1 (ix3 (e 0) (e 2) (3 : Fin 4)))
  rw [hA 0, hA 1, hA 2, hA 3, hB 0, hB 1, hB 2, hB 3]
  rfl

/-- An index of the result is in point `t`'s block iff each coordinate is in the block's range on its axis. -/
theorem mem_block (t : Fin cfg0.N) (i : S8x2000x2000.Idx) :
    i ∈ ((cfg0.win 2).blk t).view.set ↔ ∀ a : Fin 3, win0_2.index t a * S1x200x2000.size a ≤ (i a).val
      ∧ (i a).val < win0_2.index t a * S1x200x2000.size a + S1x200x2000.size a := by
  show i ∈ ((View.whole main_v0).slice (win0_2.rect t)).set ↔ _
  rw [View.set_slice_whole, Rect.mem_set_unit]
  exact Iff.rfl

/-- THE BLOCKS TILE THE RESULT: index (n, r, q) is in the block of the point whose block indices are (n, r / 200, 0). -/
theorem covered (i : S8x2000x2000.Idx) :
    ∃ t : Fin cfg0.N, (cfg0.win 2).flush t = true ∧ i ∈ ((cfg0.win 2).blk t).view.set := by
  have h0 : (i 0).val < 8 := (i 0).isLt
  have h1 : (i 1).val < 2000 := (i 1).isLt
  have h2 : (i 2).val < 2000 := (i 2).isLt
  obtain ⟨t, ht⟩ := index_onto ⟨(i 0).val, h0⟩ ⟨(i 1).val / 200, by omega⟩
  have q0 : win0_2.index t (0 : Fin 3) = (i 0).val := congrFun ht 0
  have q1 : win0_2.index t (1 : Fin 3) = (i 1).val / 200 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 200 ≤ (i 1).val ∧ (i 1).val < win0_2.index t (1 : Fin 3) * 200 + 200; omega
  | ⟨2, _⟩ => show win0_2.index t (2 : Fin 3) * 2000 ≤ (i 2).val ∧ (i 2).val < win0_2.index t (2 : Fin 3) * 2000 + 2000; omega

/-- THE RESULT ARRAY after the run is `pairwise` of the two argument arrays as launched. -/
theorem final (c : Dev nD) :
    (dats m 0 c).arrAt 2 cfg0.N
      = pairwise (m ((c : Thread nD τ).loc main_arg0)) (m ((c : Thread nD τ).loc main_arg1)) :=
  (dats m 0 c).arrAt_eq_of_cover 2 (pairwise (V m c main_arg0) (V m c main_arg1)) (fun t _ => flushed_eq m c t) covered

/-- THE RUN: every weakly fair execution terminates with the result array at `pairwise` of the arguments and the
    arguments unchanged (the frame run, its output array read by `final`, each argument array read as the frame does). -/
theorem run : θ_run defs (onTc (τ := τ) (main (F := Ideal))) ⟨m, fun _ => 0, ρ⟩ fun r => ∀ c : Dev nD,
      r.2.mem ((c : Thread nD τ).loc main_v0)
        = pairwise (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Whole

end
-- ==== Proof.ReferenceRows.lean ====
/-
  The reference's per-box quantities, read at a row.

  The reference works on the whole tables at once. For each table (extents [8, 2000, 4]) it slices out each of the four
  columns (xc, yc, w, h) as an [8, 2000] array, and from them forms, box by box: the area w · h, the half extents
  w · (1/2) and h · (1/2) (the one-half word broadcast over the array), and the four interval ends xc ± w/2, yc ± h/2.
  Read at the row of box `p` of batch `n`, each is the corresponding expression in that box's four numbers. The
  same program text serves both tables, so the lemmas come in two copies, one per argument.
-/
import proofs.«100093_j45973329936551_1_alg».proof.Proof.Gen.ReferenceIdeal.Read
import proofs.«100093_j45973329936551_1_alg».proof.Proof.BoxOverlap

noncomputable section

namespace Cert.ReferenceIdeal.Rows

open Cert.ReferenceIdeal Cert.ReferenceIdeal.Read Idealize.ShloMosaic Idealize.ShloMosaic.ValueIdx Cert.BoxOverlap

variable (x : S8x2000x4.Idx → Ideal .f32) (n : Fin 8) (p : Fin 2000)

/-! ## A column of a table: the slice at offset k, reshaped to [8, 2000], read at (n, p) is the table at (n, p, k) -/

/-! ### first argument -/

theorem col_v1 : val_main_v1 (F := Ideal) x (ix2 n p) = (x (ix3 n p (2 : Fin 4))) := by
  rw [val_main_v1_apply, val_main_v0_apply]
  refine congrArg x (funext fun d => Fin.ext ?_)
  have hn := n.isLt; have hp := p.isLt
  match d with
  | ⟨0, _⟩ => show (n.val * 2000 + p.val) / 2000 = n.val; omega
  | ⟨1, _⟩ => show (n.val * 2000 + p.val) / 1 % 2000 = p.val; omega
  | ⟨2, _⟩ => rfl

theorem col_v3 : val_main_v3 (F := Ideal) x (ix2 n p) = (x (ix3 n p (3 : Fin 4))) := by
  rw [val_main_v3_apply, val_main_v2_apply]
  refine congrArg x (funext fun d => Fin.ext ?_)
  have hn := n.isLt; have hp := p.isLt
  match d with
  | ⟨0, _⟩ => show (n.val * 2000 + p.val) / 2000 = n.val; omega
  | ⟨1, _⟩ => show (n.val * 2000 + p.val) / 1 % 2000 = p.val; omega
  | ⟨2, _⟩ => rfl

theorem col_v11 : val_main_v11 (F := Ideal) x (ix2 n p) = (x (ix3 n p (0 : Fin 4))) := by
  rw [val_main_v11_apply, val_main_v10_apply]
  refine congrArg x (funext fun d => Fin.ext ?_)
  have hn := n.isLt; have hp := p.isLt
  match d with
  | ⟨0, _⟩ => show (n.val * 2000 + p.val) / 2000 = n.val; omega
  | ⟨1, _⟩ => show (n.val * 2000 + p.val) / 1 % 2000 = p.val; omega
  | ⟨2, _⟩ => rfl

theorem col_v13 : val_main_v13 (F := Ideal) x (ix2 n p) = (x (ix3 n p (1 : Fin 4))) := by
  rw [val_main_v13_apply, val_main_v12_apply]
  refine congrArg x (funext fun d => Fin.ext ?_)
  have hn := n.isLt; have hp := p.isLt
  match d with
  | ⟨0, _⟩ => show (n.val * 2000 + p.val) / 2000 = n.val; omega
  | ⟨1, _⟩ => show (n.val * 2000 + p.val) / 1 % 2000 = p.val; omega
  | ⟨2, _⟩ => rfl

theorem col_v15 : val_main_v15 (F := Ideal) x (ix2 n p) = (x (ix3 n p (2 : Fin 4))) := by
  rw [val_main_v15_apply, val_main_v14_apply]
  refine congrArg x (funext fun d => Fin.ext ?_)
  have hn := n.isLt; have hp := p.isLt
  match d with
  | ⟨0, _⟩ => show (n.val * 2000 + p.val) / 2000 = n.val; omega
  | ⟨1, _⟩ => show (n.val * 2000 + p.val) / 1 % 2000 = p.val; omega
  | ⟨2, _⟩ => rfl

theorem col_v17 : val_main_v17 (F := Ideal) x (ix2 n p) = (x (ix3 n p (3 : Fin 4))) := by
  rw [val_main_v17_apply, val_main_v16_apply]
  refine congrArg x (funext fun d => Fin.ext ?_)
  have hn := n.isLt; have hp := p.isLt
  match d with
  | ⟨0, _⟩ => show (n.val * 2000 + p.val) / 2000 = n.val; omega
  | ⟨1, _⟩ => show (n.val * 2000 + p.val) / 1 % 2000 = p.val; omega
  | ⟨2, _⟩ => rfl

/-! ### second argument -/

theorem col_v6 : val_main_v6 (F := Ideal) x (ix2 n p) = (x (ix3 n p (2 : Fin 4))) := by
  rw [val_main_v6_apply, val_main_v5_apply]
  refine congrArg x (funext fun d => Fin.ext ?_)
  have hn := n.isLt; have hp := p.isLt
  match d with
  | ⟨0, _⟩ => show (n.val * 2000 + p.val) / 2000 = n.val; omega
  | ⟨1, _⟩ => show (n.val * 2000 + p.val) / 1 % 2000 = p.val; omega
  | ⟨2, _⟩ => rfl

theorem col_v8 : val_main_v8 (F := Ideal) x (ix2 n p) = (x (ix3 n p (3 : Fin 4))) := by
  rw [val_main_v8_apply, val_main_v7_apply]
  refine congrArg x (funext fun d => Fin.ext ?_)
  have hn := n.isLt; have hp := p.isLt
  match d with
  | ⟨0, _⟩ => show (n.val * 2000 + p.val) / 2000 = n.val; omega
  | ⟨1, _⟩ => show (n.val * 2000 + p.val) / 1 % 2000 = p.val; omega
  | ⟨2, _⟩ => rfl

theorem col_v27 : val_main_v27 (F := Ideal) x (ix2 n p) = (x (ix3 n p (0 : Fin 4))) := by
  rw [val_main_v27_apply, val_main_v26_apply]
  refine congrArg x (funext fun d => Fin.ext ?_)
  have hn := n.isLt; have hp := p.isLt
  match d with
  | ⟨0, _⟩ => show (n.val * 2000 + p.val) / 2000 = n.val; omega
  | ⟨1, _⟩ => show (n.val * 2000 + p.val) / 1 % 2000 = p.val; omega
  | ⟨2, _⟩ => rfl

theorem col_v29 : val_main_v29 (F := Ideal) x (ix2 n p) = (x (ix3 n p (1 : Fin 4))) := by
  rw [val_main_v29_apply, val_main_v28_apply]
  refine congrArg x (funext fun d => Fin.ext ?_)
  have hn := n.isLt; have hp := p.isLt
  match d with
  | ⟨0, _⟩ => show (n.val * 2000 + p.val) / 2000 = n.val; omega
  | ⟨1, _⟩ => show (n.val * 2000 + p.val) / 1 % 2000 = p.val; omega
  | ⟨2, _⟩ => rfl

theorem col_v31 : val_main_v31 (F := Ideal) x (ix2 n p) = (x (ix3 n p (2 : Fin 4))) := by
  rw [val_main_v31_apply, val_main_v30_apply]
  refine congrArg x (funext fun d => Fin.ext ?_)
  have hn := n.isLt; have hp := p.isLt
  match d with
  | ⟨0, _⟩ => show (n.val * 2000 + p.val) / 2000 = n.val; omega
  | ⟨1, _⟩ => show (n.val * 2000 + p.val) / 1 % 2000 = p.val; omega
  | ⟨2, _⟩ => rfl

theorem col_v33 : val_main_v33 (F := Ideal) x (ix2 n p) = (x (ix3 n p (3 : Fin 4))) := by
  rw [val_main_v33_apply, val_main_v32_apply]
  refine congrArg x (funext fun d => Fin.ext ?_)
  have hn := n.isLt; have hp := p.isLt
  match d with
  | ⟨0, _⟩ => show (n.val * 2000 + p.val) / 2000 = n.val; omega
  | ⟨1, _⟩ => show (n.val * 2000 + p.val) / 1 % 2000 = p.val; omega
  | ⟨2, _⟩ => rfl

/-! ## The one-half word, broadcast -/

theorem half_v18 (i : S8x2000.Idx) : val_main_v18 (F := Ideal) i = half := by
  rw [val_main_v18_apply, val_main_cst_apply]; rfl

theorem half_v20 (i : S8x2000.Idx) : val_main_v20 (F := Ideal) i = half := by
  rw [val_main_v20_apply, val_main_cst_0_apply]; rfl

theorem half_v34 (i : S8x2000.Idx) : val_main_v34 (F := Ideal) i = half := by
  rw [val_main_v34_apply, val_main_cst_1_apply]; rfl

theorem half_v36 (i : S8x2000.Idx) : val_main_v36 (F := Ideal) i = half := by
  rw [val_main_v36_apply, val_main_cst_2_apply]; rfl

/-! ## Areas, half extents and interval ends: first argument -/

theorem area_1 : val_main_v4 (F := Ideal) x (ix2 n p) = (x (ix3 n p (2 : Fin 4))) * (x (ix3 n p (3 : Fin 4))) := by
  rw [val_main_v4_apply, col_v1, col_v3]; rfl

theorem halfw_1 : val_main_v19 (F := Ideal) x (ix2 n p) = (x (ix3 n p (2 : Fin 4))) * half := by
  rw [val_main_v19_apply, col_v15, half_v18]; rfl

theorem halfh_1 : val_main_v21 (F := Ideal) x (ix2 n p) = (x (ix3 n p (3 : Fin 4))) * half := by
  rw [val_main_v21_apply, col_v17, half_v20]; rfl

theorem lo_x_1 : val_main_v22 (F := Ideal) x (ix2 n p) = lo (x (ix3 n p (0 : Fin 4))) (x (ix3 n p (2 : Fin 4))) := by
  rw [val_main_v22_apply, col_v11, halfw_1]; rfl

theorem lo_y_1 : val_main_v23 (F := Ideal) x (ix2 n p) = lo (x (ix3 n p (1 : Fin 4))) (x (ix3 n p (3 : Fin 4))) := by
  rw [val_main_v23_apply, col_v13, halfh_1]; rfl

theorem hi_x_1 : val_main_v24 (F := Ideal) x (ix2 n p) = hi (x (ix3 n p (0 : Fin 4))) (x (ix3 n p (2 : Fin 4))) := by
  rw [val_main_v24_apply, col_v11, halfw_1]; rfl

theorem hi_y_1 : val_main_v25 (F := Ideal) x (ix2 n p) = hi (x (ix3 n p (1 : Fin 4))) (x (ix3 n p (3 : Fin 4))) := by
  rw [val_main_v25_apply, col_v13, halfh_1]; rfl

/-! ## Areas, half extents and interval ends: second argument -/

theorem area_2 : val_main_v9 (F := Ideal) x (ix2 n p) = (x (ix3 n p (2 : Fin 4))) * (x (ix3 n p (3 : Fin 4))) := by
  rw [val_main_v9_apply, col_v6, col_v8]; rfl

theorem halfw_2 : val_main_v35 (F := Ideal) x (ix2 n p) = (x (ix3 n p (2 : Fin 4))) * half := by
  rw [val_main_v35_apply, col_v31, half_v34]; rfl

theorem halfh_2 : val_main_v37 (F := Ideal) x (ix2 n p) = (x (ix3 n p (3 : Fin 4))) * half := by
  rw [val_main_v37_apply, col_v33, half_v36]; rfl

theorem lo_x_2 : val_main_v38 (F := Ideal) x (ix2 n p) = lo (x (ix3 n p (0 : Fin 4))) (x (ix3 n p (2 : Fin 4))) := by
  rw [val_main_v38_apply, col_v27, halfw_2]; rfl

theorem lo_y_2 : val_main_v39 (F := Ideal) x (ix2 n p) = lo (x (ix3 n p (1 : Fin 4))) (x (ix3 n p (3 : Fin 4))) := by
  rw [val_main_v39_apply, col_v29, halfh_2]; rfl

theorem hi_x_2 : val_main_v40 (F := Ideal) x (ix2 n p) = hi (x (ix3 n p (0 : Fin 4))) (x (ix3 n p (2 : Fin 4))) := by
  rw [val_main_v40_apply, col_v27, halfw_2]; rfl

theorem hi_y_2 : val_main_v41 (F := Ideal) x (ix2 n p) = hi (x (ix3 n p (1 : Fin 4))) (x (ix3 n p (3 : Fin 4))) := by
  rw [val_main_v41_apply, col_v29, halfh_2]; rfl

end Cert.ReferenceIdeal.Rows

end
-- ==== Proof.ReferencePairs.lean ====
/-
  The reference's pairings, and the reference as the specification.

  A per-box array of the first table ([8, 2000]) is given a trailing unit axis and repeated along it, so that position
  (n, p, q) reads row (n, p); one of the second table is given a middle unit axis and repeated along it, so that
  (n, p, q) reads row (n, q). On these the reference takes, position by position: the larger lower end and the
  smaller upper end along each axis, their difference clipped below at the zero word (the clip is a maximum with the
  broadcast zero), the product of the two clipped lengths, the sum of the two areas minus that product, and the
  quotient. At (n, p, q) that is the intersection-over-union of box p of batch n of the first table against box q of
  batch n of the second — the specification's `pairwise`.
-/
import proofs.«100093_j45973329936551_1_alg».proof.Proof.Gen.ReferenceIdeal.Read
import proofs.«100093_j45973329936551_1_alg».proof.Proof.BoxOverlap
import proofs.«100093_j45973329936551_1_alg».proof.Proof.ReferenceRows

noncomputable section

namespace Cert.ReferenceIdeal.Pairs

open Cert.ReferenceIdeal Cert.ReferenceIdeal.Read Idealize.ShloMosaic Idealize.ShloMosaic.ValueIdx Cert.BoxOverlap
open Cert.ReferenceIdeal.Rows

variable (x y : S8x2000x4.Idx → Ideal .f32) (n : Fin 8) (p q : Fin 2000)

/-! ## A row array of the first table, repeated along a trailing axis -/

theorem left_v44 : val_main_v44 (F := Ideal) x (ix3 n p q) = val_main_v22 (F := Ideal) x (ix2 n p) := by
  rw [val_main_v44_apply, val_main_v42_apply]
  refine congrArg (val_main_v22 (F := Ideal) x) (funext fun d => ?_)
  match d with
  | ⟨0, _⟩ => rfl
  | ⟨1, _⟩ => rfl

theorem left_v49 : val_main_v49 (F := Ideal) x (ix3 n p q) = val_main_v23 (F := Ideal) x (ix2 n p) := by
  rw [val_main_v49_apply, val_main_v47_apply]
  refine congrArg (val_main_v23 (F := Ideal) x) (funext fun d => ?_)
  match d with
  | ⟨0, _⟩ => rfl
  | ⟨1, _⟩ => rfl

theorem left_v54 : val_main_v54 (F := Ideal) x (ix3 n p q) = val_main_v24 (F := Ideal) x (ix2 n p) := by
  rw [val_main_v54_apply, val_main_v52_apply]
  refine congrArg (val_main_v24 (F := Ideal) x) (funext fun d => ?_)
  match d with
  | ⟨0, _⟩ => rfl
  | ⟨1, _⟩ => rfl

theorem left_v59 : val_main_v59 (F := Ideal) x (ix3 n p q) = val_main_v25 (F := Ideal) x (ix2 n p) := by
  rw [val_main_v59_apply, val_main_v57_apply]
  refine congrArg (val_main_v25 (F := Ideal) x) (funext fun d => ?_)
  match d with
  | ⟨0, _⟩ => rfl
  | ⟨1, _⟩ => rfl

theorem left_v69 : val_main_v69 (F := Ideal) x (ix3 n p q) = val_main_v4 (F := Ideal) x (ix2 n p) := by
  rw [val_main_v69_apply, val_main_v67_apply]
  refine congrArg (val_main_v4 (F := Ideal) x) (funext fun d => ?_)
  match d with
  | ⟨0, _⟩ => rfl
  | ⟨1, _⟩ => rfl

/-! ## A row array of the second table, repeated along a middle axis -/

theorem right_v45 : val_main_v45 (F := Ideal) y (ix3 n p q) = val_main_v38 (F := Ideal) y (ix2 n q) := by
  rw [val_main_v45_apply, val_main_v43_apply]
  refine congrArg (val_main_v38 (F := Ideal) y) (funext fun d => ?_)
  match d with
  | ⟨0, _⟩ => rfl
  | ⟨1, _⟩ => rfl

theorem right_v50 : val_main_v50 (F := Ideal) y (ix3 n p q) = val_main_v39 (F := Ideal) y (ix2 n q) := by
  rw [val_main_v50_apply, val_main_v48_apply]
  refine congrArg (val_main_v39 (F := Ideal) y) (funext fun d => ?_)
  match d with
  | ⟨0, _⟩ => rfl
  | ⟨1, _⟩ => rfl

theorem right_v55 : val_main_v55 (F := Ideal) y (ix3 n p q) = val_main_v40 (F := Ideal) y (ix2 n q) := by
  rw [val_main_v55_apply, val_main_v53_apply]
  refine congrArg (val_main_v40 (F := Ideal) y) (funext fun d => ?_)
  match d with
  | ⟨0, _⟩ => rfl
  | ⟨1, _⟩ => rfl

theorem right_v60 : val_main_v60 (F := Ideal) y (ix3 n p q) = val_main_v41 (F := Ideal) y (ix2 n q) := by
  rw [val_main_v60_apply, val_main_v58_apply]
  refine congrArg (val_main_v41 (F := Ideal) y) (funext fun d => ?_)
  match d with
  | ⟨0, _⟩ => rfl
  | ⟨1, _⟩ => rfl

theorem right_v70 : val_main_v70 (F := Ideal) y (ix3 n p q) = val_main_v9 (F := Ideal) y (ix2 n q) := by
  rw [val_main_v70_apply, val_main_v68_apply]
  refine congrArg (val_main_v9 (F := Ideal) y) (funext fun d => ?_)
  match d with
  | ⟨0, _⟩ => rfl
  | ⟨1, _⟩ => rfl

/-! ## The paired ends -/

theorem max_lo_x : val_main_v46 (F := Ideal) x y (ix3 n p q) = max (lo (x (ix3 n p (0 : Fin 4))) (x (ix3 n p (2 : Fin 4)))) (lo (y (ix3 n q (0 : Fin 4))) (y (ix3 n q (2 : Fin 4)))) := by
  rw [val_main_v46_apply, left_v44, right_v45, lo_x_1, lo_x_2]; rfl

theorem max_lo_y : val_main_v51 (F := Ideal) x y (ix3 n p q) = max (lo (x (ix3 n p (1 : Fin 4))) (x (ix3 n p (3 : Fin 4)))) (lo (y (ix3 n q (1 : Fin 4))) (y (ix3 n q (3 : Fin 4)))) := by
  rw [val_main_v51_apply, left_v49, right_v50, lo_y_1, lo_y_2]; rfl

theorem min_hi_x : val_main_v56 (F := Ideal) x y (ix3 n p q) = min (hi (x (ix3 n p (0 : Fin 4))) (x (ix3 n p (2 : Fin 4)))) (hi (y (ix3 n q (0 : Fin 4))) (y (ix3 n q (2 : Fin 4)))) := by
  rw [val_main_v56_apply, left_v54, right_v55, hi_x_1, hi_x_2]; rfl

theorem min_hi_y : val_main_v61 (F := Ideal) x y (ix3 n p q) = min (hi (x (ix3 n p (1 : Fin 4))) (x (ix3 n p (3 : Fin 4)))) (hi (y (ix3 n q (1 : Fin 4))) (y (ix3 n q (3 : Fin 4)))) := by
  rw [val_main_v61_apply, left_v59, right_v60, hi_y_1, hi_y_2]; rfl

/-! ## The clip's lower bound: the zero word, broadcast -/

theorem zero_x (i : S8x2000x2000.Idx) : val_main_call0_v1 (F := Ideal) i = zero := by
  rw [val_main_call0_v1_apply, val_main_call0_v0_apply, val_main_cst_3_apply]; rfl

theorem zero_y (i : S8x2000x2000.Idx) : val_main_call1_v1 (F := Ideal) i = zero := by
  rw [val_main_call1_v1_apply, val_main_call1_v0_apply, val_main_cst_4_apply]; rfl

/-! ## The overlap lengths -/

theorem overlap_x : val_main_v63 (F := Ideal) x y (ix3 n p q) = overlap (lo (x (ix3 n p (0 : Fin 4))) (x (ix3 n p (2 : Fin 4)))) (hi (x (ix3 n p (0 : Fin 4))) (x (ix3 n p (2 : Fin 4)))) (lo (y (ix3 n q (0 : Fin 4))) (y (ix3 n q (2 : Fin 4)))) (hi (y (ix3 n q (0 : Fin 4))) (y (ix3 n q (2 : Fin 4)))) := by
  rw [val_main_v63_apply, zero_x, val_main_v62_apply, min_hi_x, max_lo_x]; rfl

theorem overlap_y : val_main_v65 (F := Ideal) x y (ix3 n p q) = overlap (lo (x (ix3 n p (1 : Fin 4))) (x (ix3 n p (3 : Fin 4)))) (hi (x (ix3 n p (1 : Fin 4))) (x (ix3 n p (3 : Fin 4)))) (lo (y (ix3 n q (1 : Fin 4))) (y (ix3 n q (3 : Fin 4)))) (hi (y (ix3 n q (1 : Fin 4))) (y (ix3 n q (3 : Fin 4)))) := by
  rw [val_main_v65_apply, zero_y, val_main_v64_apply, min_hi_y, max_lo_y]; rfl

/-! ## The result -/

/-- The reference's result at (n, p, q) is the score of box p against box q of batch n. -/
theorem result_apply : val_main_v73 (F := Ideal) x y (ix3 n p q) = pairAt x y n p q := by
  rw [val_main_v73_apply, val_main_v72_apply, val_main_v71_apply, val_main_v66_apply, overlap_x, overlap_y,
    left_v69, right_v70, area_1, area_2]
  rfl

/-- THE REFERENCE IS THE SPECIFICATION: its result array is `pairwise` of its two arguments. -/
theorem result_eq : val_main_v73 (F := Ideal) x y = pairwise x y := by
  funext i
  obtain ⟨n, p, q, rfl⟩ : ∃ (n : Fin 8) (p q : Fin 2000), i = ix3 n p q := ⟨i 0, i 1, i 2, eq_ix3 i⟩
  rw [pairwise_ix3]
  exact result_apply x y n p q

end Cert.ReferenceIdeal.Pairs

end
-- ==== Proof.lean ====
/-
  Pairwise intersection-over-union of two tables of boxes: the tiled kernel against its whole-array reference.

  Both programs take two tables of extents [8, 2000, 4] — each row a box (xc, yc, w, h) — and return the [8, 2000, 2000]
  array whose entry (n, p, q) scores box p of batch n of the first table against box q of batch n of the second:
  the product of the two axes' overlap lengths (the smaller upper end minus the larger lower end, clipped below at zero,
  the ends being centre ± extent · 1/2), divided by the sum of the two areas minus that product. The reference computes
  this on whole arrays; the kernel walks an 8 × 10 grid, each point scoring 200 boxes of the first table against all
  2000 of the second and writing back the corresponding 200 rows of the result.

  Read over the extended reals the two programs apply the same exact operations, in the same order, to the same
  entries, with the same two constant words (one half and zero), so their results agree entry by entry with no
  algebraic law needed and no use of the finiteness of the inputs:
    * `BoxOverlap` states the result as one function `pairwise` of the two tables;
    * `KernelRows`, `KernelPairs`: the value the kernel's body stores at (0, p, q) of its output block is the score of
      box p of its first block against box q of its second;
    * `KernelArray`: the 80 output blocks are the restrictions of `pairwise` to their rows and tile the result array,
      so the kernel's run ends with the result at `pairwise` of the arguments;
    * `ReferenceRows`, `ReferencePairs`: the reference's result, read one operation at a time, is `pairwise` too.
  The three frame conjuncts are the generated frame certificates of the two kernel programs and the reference's generated
  run with its result dropped; the idealization rewrote no operation, so there is nothing to preserve.
-/
import proofs.«100093_j45973329936551_1_alg».proof.Defs
import proofs.«100093_j45973329936551_1_alg».proof.Proof.Gen.Kernel
import proofs.«100093_j45973329936551_1_alg».proof.Proof.Gen.Kernel.Frame
import proofs.«100093_j45973329936551_1_alg».proof.Proof.Gen.KernelIdeal
import proofs.«100093_j45973329936551_1_alg».proof.Proof.Gen.KernelIdeal.Frame
import proofs.«100093_j45973329936551_1_alg».proof.Proof.Gen.ReferenceIdeal
import proofs.«100093_j45973329936551_1_alg».proof.Proof.Gen.Pre_finite_inputs
import proofs.«100093_j45973329936551_1_alg».proof.Proof.Gen.ReferenceIdeal.Run
import proofs.«100093_j45973329936551_1_alg».proof.Proof.Gen.ReferenceIdeal.Read
import proofs.«100093_j45973329936551_1_alg».proof.Proof.BoxOverlap
import proofs.«100093_j45973329936551_1_alg».proof.Proof.KernelArray
import proofs.«100093_j45973329936551_1_alg».proof.Proof.ReferencePairs
import Idealize.ShloMosaic.Adequacy
import Idealize.ShloMosaic.Init

noncomputable section

namespace Cert.Proof

open Idealize.ShloMosaic Idealize.SL.Sem Cert.BoxOverlap

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two tables, both programs end with the result array at `pairwise` of the tables:
    the kernel by its blocks, the reference operation by operation. -/
theorem algebraic : Cert.algebraic_KernelIdeal_ReferenceIdeal := by
  intro m ρ m' ρ' _ hagree
  refine ⟨fun c => pairwise (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v73_eq, Cert.ReferenceIdeal.Pairs.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
